-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S16384x1 : Shape := ⟨2, ![16384, 1]⟩
abbrev S1x16384 : Shape := ⟨2, ![1, 16384]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384x1, .f32⟩
  | .hbm, ⟨3, _⟩ => ⟨S1x16384, .f32⟩
  | .hbm, ⟨4, _⟩ => ⟨S16384x1, .f32⟩
  | .hbm, ⟨5, _⟩ => ⟨S1x16384, .f32⟩
  | .hbm, ⟨6, _⟩ => ⟨S16384x1, .f32⟩
  | .hbm, ⟨7, _⟩ => ⟨S16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x2048, .f32⟩
  | .local _ .vmem, ⟨3, _⟩ => ⟨S1x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384_S16384x1 : S16384.ShapeCasts S16384x1
  shapeCasts_S16384_S1x16384 : S16384.ShapeCasts S1x16384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  natLt_1_32 : 1 < 32
  shapeCasts_S16384x1_S16384 : S16384x1.ShapeCasts S16384
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S16384x1.size a
  hwx0_0 : ∀ i : grid0.Coords, EltTy.bits .f32 = 32 ∨ (Rect.block (s := S16384x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S1x16384, .f32⟩
  | .hbm, ⟨3, _⟩ => ⟨S16384x1, .f32⟩
  | .hbm, ⟨4, _⟩ => ⟨S16384x16384, .f32⟩
  | .hbm, ⟨5, _⟩ => ⟨S16384x16384, .f32⟩
  | .hbm, ⟨6, _⟩ => ⟨S16384x16384, .i1⟩
  | .hbm, ⟨7, _⟩ => ⟨S16384x1, .f32⟩
  | .hbm, ⟨8, _⟩ => ⟨S1x16384, .f32⟩
  | .hbm, ⟨9, _⟩ => ⟨S16384x16384, .f32⟩
  | .hbm, ⟨10, _⟩ => ⟨S16384x16384, .f32⟩
  | .hbm, ⟨11, _⟩ => ⟨S16384x16384, .f32⟩
  | .hbm, ⟨12, _⟩ => ⟨S_, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S16384x16384, .i32⟩
  | .hbm, ⟨25, _⟩ => ⟨S_, .i32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  h_S_ : 0 < S_.numel
  natLt_1_32 : 1 < 32
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.Found.lean ====
/-
  What the kernel body leaves behind at a grid point, case by case.

  The body keeps two accumulators across the column tiles of a block of rows: a running total and a running count.  At
  the first tile (case A) it stores zeros, reads them back and adds the tile's share; at a middle tile (case B) it adds
  the tile's share to what the tile before left; at the last tile (case C) it does the same and then stores, from the two
  accumulators, the block's worths into the output.  Each case's stores cover the whole buffer with one function of the
  point's blocks, and that function is the payload named here.
-/
import proofs.«166535_j34256659153340_1_alg».proof.Proof.Gen.KernelIdeal.Frame
import Idealize.ShloMosaic.Lib.Pipeline.Value
import Idealize.ShloMosaic.Lib.Tactic

noncomputable section

namespace Cert.KernelIdeal.Found

open Idealize.ShloMosaic Idealize.ShloMosaic.TcCoe Idealize.SL.Sem Idealize.ShloMosaic.Tactic Cert.KernelIdeal Cert.KernelIdeal.Gen
open Idealize.ShloMosaic.Pipeline (Dat)

variable {F : FTy → Type} [FloatOps F]

theorem hz : (![0, 0] : Fin 2 → Nat) = fun _ => 0 := funext fun a => by fin_cases a <;> rfl

/-- The first tile: the running total is the tile's share added to the stored zeros. -/
theorem total_A (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x1 .f32) (x1 : Vec F S1x2048 .f32) (x2 : Vec F S512x1 .f32) (x3 : Vec F S1x2048 .f32) :
    sout0_A_0 c i arg2 harg2 arg3 harg3 arg4 harg4 arg5 harg5 arg6 harg6 arg7 harg7 arg8 harg8 hc0 hc1 x0 x1 x2 x3 = k0_pay6 x0 x1 x2 x3 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg7.read_unread, harg8.read_unread,
    View.ld_unit_zero (S := S512x1) hz, View.ld_unit_zero (S := S1x2048) hz]

/-- The first tile: the running count is the tile's share added to the stored zeros. -/
theorem count_A (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x1 .f32) (x1 : Vec F S1x2048 .f32) (x2 : Vec F S512x1 .f32) (x3 : Vec F S1x2048 .f32) :
    sout0_A_1 c i arg2 harg2 arg3 harg3 arg4 harg4 arg5 harg5 arg6 harg6 arg7 harg7 arg8 harg8 hc0 hc1 x0 x1 x2 x3 = k0_pay1 (k0_pay4 (F := F)) (k0_pay7 x2 x3) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg7.read_unread, harg8.read_unread,
    View.ld_unit_zero (S := S512x1) hz, View.ld_unit_zero (S := S1x2048) hz]

/-- A middle tile: the tile's share added to the total the tile before left. -/
theorem total_B (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x1 .f32) (x1 : Vec F S1x2048 .f32) (x2 : Vec F S512x1 .f32) (x3 : Vec F S1x2048 .f32) (xs0 : Vec F S512x1 .f32) (xs1 : Vec F S512x1 .f32) :
    sout0_B_0 c i arg2 harg2 arg3 harg3 arg4 harg4 arg5 harg5 arg6 harg6 arg7 harg7 arg8 harg8 hc0 hc1 x0 x1 x2 x3 xs0 xs1 = k0_pay6 x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg7.read_unread, harg8.read_unread,
    View.ld_unit_zero (S := S512x1) hz, View.ld_unit_zero (S := S1x2048) hz]

/-- A middle tile: the tile's share added to the count the tile before left. -/
theorem count_B (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x1 .f32) (x1 : Vec F S1x2048 .f32) (x2 : Vec F S512x1 .f32) (x3 : Vec F S1x2048 .f32) (xs0 : Vec F S512x1 .f32) (xs1 : Vec F S512x1 .f32) :
    sout0_B_1 c i arg2 harg2 arg3 harg3 arg4 harg4 arg5 harg5 arg6 harg6 arg7 harg7 arg8 harg8 hc0 hc1 x0 x1 x2 x3 xs0 xs1 = k0_pay1 xs1 (k0_pay7 x2 x3) := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg7.read_unread, harg8.read_unread,
    View.ld_unit_zero (S := S512x1) hz, View.ld_unit_zero (S := S1x2048) hz]

/-- The last tile: the total, as at a middle tile. -/
theorem total_C (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x1 .f32) (x1 : Vec F S1x2048 .f32) (x2 : Vec F S512x1 .f32) (x3 : Vec F S1x2048 .f32) (xs0 : Vec F S512x1 .f32) (xs1 : Vec F S512x1 .f32) :
    sout0_C_0 c i arg2 harg2 arg3 harg3 arg4 harg4 arg5 harg5 arg6 harg6 arg7 harg7 arg8 harg8 hc0 hc1 x0 x1 x2 x3 xs0 xs1 = k0_pay6 x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg7.read_unread, harg8.read_unread,
    View.ld_unit_zero (S := S512x1) hz, View.ld_unit_zero (S := S1x2048) hz]

/-- The last tile: the count, as at a middle tile. -/
theorem count_C (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x1 .f32) (x1 : Vec F S1x2048 .f32) (x2 : Vec F S512x1 .f32) (x3 : Vec F S1x2048 .f32) (xs0 : Vec F S512x1 .f32) (xs1 : Vec F S512x1 .f32) :
    sout0_C_1 c i arg2 harg2 arg3 harg3 arg4 harg4 arg5 harg5 arg6 harg6 arg7 harg7 arg8 harg8 hc0 hc1 x0 x1 x2 x3 xs0 xs1 = k0_pay1 xs1 (k0_pay7 x2 x3) := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg7.read_unread, harg8.read_unread,
    View.ld_unit_zero (S := S512x1) hz, View.ld_unit_zero (S := S1x2048) hz]

/-- The last tile: the output block holds the rows' worths, from the final count and the final total. -/
theorem worth_C (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x1 .f32) (x1 : Vec F S1x2048 .f32) (x2 : Vec F S512x1 .f32) (x3 : Vec F S1x2048 .f32) (xs0 : Vec F S512x1 .f32) (xs1 : Vec F S512x1 .f32) :
    out0_C_4 c i arg2 harg2 arg3 harg3 arg4 harg4 arg5 harg5 arg6 harg6 arg7 harg7 arg8 harg8 hc0 hc1 x0 x1 x2 x3 xs0 xs1 = k0_pay2 (k0_pay1 xs1 (k0_pay7 x2 x3)) (k0_pay6 x0 x1 x2 x3 xs0) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz, View.readCov_unit_zero (S := S512x1) _ hz, View.readCov_unit_zero (S := S512x1) _ hz]
  simp only [View.readAt_eq_ld, harg2.read_unread, harg3.read_unread, harg4.read_unread, harg5.read_unread, harg7.read_unread, harg8.read_unread,
    View.ld_unit_zero (S := S512x1) hz, View.ld_unit_zero (S := S1x2048) hz]

end Cert.KernelIdeal.Found

end
-- ==== Proof.LibTileSum.lean ====
/-
  A sum over `Q * w` consecutive positions taken tile by tile: `Q` tiles of `w` positions each, position
  `b * w + l` being lane `l` of tile `b`. Only commutativity and associativity of the addition are used, so the
  statement holds in every additive commutative monoid.
-/
import Mathlib.Algebra.BigOperators.Fin
import Mathlib.Logic.Equiv.Fin.Basic
import Mathlib.Tactic

namespace Cert.TileSum

variable {M : Type*} [AddCommMonoid M]

/-- Position `b * w + l` of `Q * w`. -/
def pos {Q w : ℕ} (b : Fin Q) (l : Fin w) : Fin (Q * w) :=
  ⟨b.val * w + l.val, by
    have hb := b.isLt; have hl := l.isLt
    calc b.val * w + l.val < b.val * w + w := by omega
      _ = (b.val + 1) * w := by ring
      _ ≤ Q * w := Nat.mul_le_mul_right w hb⟩

/-- The sum over all positions is the sum over the tiles of the sums over their lanes. -/
theorem sum_tiles {Q w : ℕ} (g : Fin (Q * w) → M) :
    ∑ n, g n = ∑ b : Fin Q, ∑ l : Fin w, g (pos b l) := by
  rw [← Fintype.sum_prod_type' (fun b l => g (pos b l))]
  refine (Fintype.sum_equiv finProdFinEquiv _ _ fun p => ?_).symm
  congr 1
  apply Fin.ext
  simp only [finProdFinEquiv_apply_val, pos]
  ring

end Cert.TileSum
-- ==== Proof.Spec.lean ====
/-
  The pairwise ranking loss over N = 16384 scores, as one function of the two input vectors.

  For a row `i` a column `j` COUNTS when `target j < target i`.  A counting column contributes the hinge
  `max 0 (margin - (pred i - pred j))`, every other column contributes `0`; the row's total `rowSum` is the sum of
  the contributions and its count `rowCnt` the number of counting columns, taken as a sum of ones.  A row with a
  positive count is worth `rowSum / max rowCnt 1`, a row with none is worth `0`, and the loss is the sum of the rows'
  worths divided by the number of rows.

  A sum over the 16384 columns can be taken in eight consecutive tiles of 2048 columns: the running total after tile
  `k` is the sum over the tiles `0 … k`, it starts as the first tile's sum, grows by one tile's sum per step, and after
  tile `7` is the whole sum.  Only commutativity and associativity of the addition are used, so this holds for
  extended reals, infinities included.
-/
import Idealize.ShloMosaic.PureOps.Ideal.Laws
import Idealize.ShloMosaic.Lib.ValueIdx
import proofs.«166535_j34256659153340_1_alg».proof.Proof.LibTileSum

noncomputable section

namespace Cert.PairRank

open Idealize.ShloMosaic Idealize.ShloMosaic.ValueIdx

/-! ## Rows and columns by tile -/

/-- Row `r` of the `a`-th block of 512 rows. -/
def row (a : ℕ) (r : Fin 512) : Fin 16384 :=
  ⟨(a % 32) * 512 + r.val, by have := Nat.mod_lt a (show 0 < 32 by decide); have := r.isLt; omega⟩

/-- Column `l` of the `b`-th tile of 2048 columns. -/
def col (b : ℕ) (l : Fin 2048) : Fin 16384 :=
  ⟨(b % 8) * 2048 + l.val, by have := Nat.mod_lt b (show 0 < 8 by decide); have := l.isLt; omega⟩

theorem row_val (a : ℕ) (ha : a < 32) (r : Fin 512) : (row a r).val = a * 512 + r.val := by
  show (a % 32) * 512 + r.val = _; rw [Nat.mod_eq_of_lt ha]

theorem col_val (b : ℕ) (hb : b < 8) (l : Fin 2048) : (col b l).val = b * 2048 + l.val := by
  show (b % 8) * 2048 + l.val = _; rw [Nat.mod_eq_of_lt hb]

/-! ## A sum over the columns, tile by tile -/

section Tiles

variable {M : Type*} [AddCommMonoid M]

/-- The running total of `g` after the tiles `0 … k`. -/
def tiles (g : Fin 16384 → M) (k : ℕ) : M := ∑ b ∈ Finset.range (k + 1), ∑ l : Fin 2048, g (col b l)

theorem tiles_zero (g : Fin 16384 → M) : tiles g 0 = ∑ l : Fin 2048, g (col 0 l) := by
  unfold tiles; rw [Finset.sum_range_one]

theorem tiles_succ (g : Fin 16384 → M) (k : ℕ) : tiles g (k + 1) = tiles g k + ∑ l : Fin 2048, g (col (k + 1) l) := by
  unfold tiles; rw [Finset.sum_range_succ]

/-- After the last tile the running total is the sum over all the columns. -/
theorem tiles_last (g : Fin 16384 → M) : tiles g 7 = ∑ j : Fin 16384, g j := by
  unfold tiles
  rw [Finset.sum_range (fun b => ∑ l : Fin 2048, g (col b l))]
  have h := Cert.TileSum.sum_tiles (Q := 8) (w := 2048) (fun n : Fin (8 * 2048) => g n)
  refine Eq.trans ?_ h.symm
  refine Finset.sum_congr rfl fun b _ => Finset.sum_congr rfl fun l _ => congrArg g (Fin.ext ?_)
  show (b.val % 8) * 2048 + l.val = b.val * 2048 + l.val
  rw [Nat.mod_eq_of_lt b.isLt]

end Tiles

/-! ## The loss -/

/-- The margin, as the kernel and the reference both write it: the f32 nearest 0.1. -/
abbrev margin : EReal := Ideal.ofBits .f32 0x3DCCCCCD#32

/-- The hinge of row `i` against column `j`. -/
def hinge (p : Fin 16384 → EReal) (i j : Fin 16384) : EReal := max 0 (margin - (p i - p j))

/-- What column `j` contributes to row `i`: the hinge where the column counts, else nothing. -/
def term (p t : Fin 16384 → EReal) (i j : Fin 16384) : EReal := if t j < t i then hinge p i j else 0

/-- One for a column that counts for row `i`, else nothing. -/
def ind (t : Fin 16384 → EReal) (i j : Fin 16384) : EReal := if t j < t i then 1 else 0

/-- Row `i`'s total. -/
def rowSum (p t : Fin 16384 → EReal) (i : Fin 16384) : EReal := ∑ j : Fin 16384, term p t i j

/-- Row `i`'s count, as a sum of ones. -/
def rowCnt (t : Fin 16384 → EReal) (i : Fin 16384) : EReal := ∑ j : Fin 16384, ind t i j

/-- What a row is worth, from its count and its total. -/
def worth (cnt sum : EReal) : EReal := if 0 < cnt then Ideal.div sum (max cnt 1) else 0

/-- Row `i`'s worth. -/
def perRow (p t : Fin 16384 → EReal) (i : Fin 16384) : EReal := worth (rowCnt t i) (rowSum p t i)

/-- The input vectors as functions of the position. -/
abbrev vec (x : (⟨1, ![16384]⟩ : Shape).Idx → EReal) : Fin 16384 → EReal := fun i => x (ix1 i)

/-- The rows' worths, as a vector. -/
def perRowVec (x0 x1 : (⟨1, ![16384]⟩ : Shape).Idx → EReal) : (⟨1, ![16384]⟩ : Shape).Idx → EReal :=
  fun j => perRow (vec x0) (vec x1) (j 0)

/-- The loss: the rows' worths summed from zero, divided by the number of rows (the f32 16384.0). -/
def loss (x0 x1 : (⟨1, ![16384]⟩ : Shape).Idx → EReal) : (⟨0, ![]⟩ : Shape).Idx → EReal :=
  fun _ => Ideal.div (Ideal.ofBits .f32 0x00000000#32 + ∑ j : (⟨1, ![16384]⟩ : Shape).Idx, perRowVec x0 x1 j)
    (Ideal.ofBits .f32 0x46800000#32)

/-- The running total of row `(a, r)`'s contributions after column tile `k`, and its running count. -/
def accSum (p t : Fin 16384 → EReal) (a k : ℕ) (r : Fin 512) : EReal := tiles (term p t (row a r)) k
def accCnt (t : Fin 16384 → EReal) (a k : ℕ) (r : Fin 512) : EReal := tiles (ind t (row a r)) k

theorem accSum_last (p t : Fin 16384 → EReal) (a : ℕ) (r : Fin 512) : accSum p t a 7 r = rowSum p t (row a r) :=
  tiles_last _
theorem accCnt_last (t : Fin 16384 → EReal) (a : ℕ) (r : Fin 512) : accCnt t a 7 r = rowCnt t (row a r) :=
  tiles_last _

end Cert.PairRank

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.Payload.lean ====
/-
  The kernel body's arithmetic, read at a row.

  At a grid point the body sees a block of 512 rows (a column of 512 predictions and a column of 512 targets) and a tile
  of 2048 columns (a row of 2048 predictions and a row of 2048 targets).  For row `r` of the block and column `l` of the
  tile, the column counts when its target is below the row's; a counting column contributes the hinge, every other one
  nothing.  The body adds the tile's contributions to the row's running total and the number of counting columns, as a
  sum of ones, to the row's running count.  After the last tile it turns count and total into the row's worth.
-/
import proofs.«166535_j34256659153340_1_alg».proof.Proof.Gen.KernelIdeal.Skeleton
import proofs.«166535_j34256659153340_1_alg».proof.Proof.Spec
import proofs.«166535_j34256659153340_1_alg».proof.Proof.LibRowReduce
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.PairRank

variable [Cert.KernelIdeal.Facts]

/-- The strict comparison of two extended reals, as a one-bit word. -/
theorem cmp_olt_eq_one (x y : EReal) : Ideal.cmp .olt x y = 1#1 ↔ x < y := by
  unfold Ideal.cmp
  by_cases h : x < y <;> simp [h]

theorem cmp_ogt_eq_one (x y : EReal) : Ideal.cmp .ogt x y = 1#1 ↔ y < x := by
  unfold Ideal.cmp
  by_cases h : y < x <;> simp [h]

/-- The f32 word of 1.0 is the extended real 1. -/
theorem ofBits_one_f32 : Ideal.ofBits .f32 0x3F800000#32 = 1 := IdealRules.sign_bit.ideal_onePat .f32

/-- A one-bit word widened to 32 bits and read as a signed integer is 1 or 0. -/
theorem sitofp_bit (P : Prop) [Decidable P] :
    (((((BitVec.ofBool (decide P)).setWidth 32 : BitVec 32).toInt : ℝ) : EReal)) = if P then 1 else 0 := by
  by_cases h : P
  · simp [h]
  · simp [h]

/-- Whether column `l` of the tile counts for row `r` of the block. -/
theorem mask_apply (x2 : Vec Ideal S512x1 .f32) (x3 : Vec Ideal S1x2048 .f32) (r : Fin 512) (l : Fin 2048) :
    k0_pay5 (F := Ideal) x2 x3 (ix2 r l) = Ideal.cmp .olt (x3 (ix2 (0 : Fin 1) l)) (x2 (ix2 r (0 : Fin 1))) := by
  unfold k0_pay5
  simp only [shapeCast_self]
  rw [cmpf_apply, broadcastTo_1b_ab_apply, Cert.RowReduce.broadcastTo_a1_ab_apply]
  rfl

/-- The tile's share of a row's count: the number of its counting columns, as a sum of ones. -/
theorem count_apply (x2 : Vec Ideal S512x1 .f32) (x3 : Vec Ideal S1x2048 .f32) (t : Fin 16384 → EReal) (a b : ℕ)
    (h2 : ∀ r : Fin 512, x2 (ix2 r (0 : Fin 1)) = t (row a r)) (h3 : ∀ l : Fin 2048, x3 (ix2 (0 : Fin 1) l) = t (col b l))
    (r : Fin 512) :
    k0_pay7 (F := Ideal) x2 x3 (ix2 r (0 : Fin 1)) = ∑ l : Fin 2048, ind t (row a r) (col b l) := by
  unfold k0_pay7
  rw [Cert.RowReduce.shapeCast_a_a1_apply]
  refine (Cert.RowReduce.multiReduction_add_row _ _ _ _ _ r).trans ?_
  refine Finset.sum_congr rfl fun l _ => ?_
  rw [sitofp_apply, extui_apply, mask_apply, h2, h3]
  unfold ind
  exact sitofp_bit _

/-- The row's running total after the tile: what it was plus the tile's contributions. -/
theorem total_apply (x0 : Vec Ideal S512x1 .f32) (x1 : Vec Ideal S1x2048 .f32) (x2 : Vec Ideal S512x1 .f32)
    (x3 : Vec Ideal S1x2048 .f32) (acc : Vec Ideal S512x1 .f32) (p t : Fin 16384 → EReal) (a b : ℕ)
    (h0 : ∀ r : Fin 512, x0 (ix2 r (0 : Fin 1)) = p (row a r)) (h1 : ∀ l : Fin 2048, x1 (ix2 (0 : Fin 1) l) = p (col b l))
    (h2 : ∀ r : Fin 512, x2 (ix2 r (0 : Fin 1)) = t (row a r)) (h3 : ∀ l : Fin 2048, x3 (ix2 (0 : Fin 1) l) = t (col b l))
    (r : Fin 512) :
    k0_pay6 (F := Ideal) x0 x1 x2 x3 acc (ix2 r (0 : Fin 1))
      = acc (ix2 r (0 : Fin 1)) + ∑ l : Fin 2048, term p t (row a r) (col b l) := by
  unfold k0_pay6
  simp only [shapeCast_self]
  rw [addf_apply]
  refine congrArg (acc (ix2 r (0 : Fin 1)) + ·) ?_
  rw [Cert.RowReduce.shapeCast_a_a1_apply]
  refine (Cert.RowReduce.multiReduction_add_row _ _ _ _ _ r).trans ?_
  refine Finset.sum_congr rfl fun l _ => ?_
  rw [select_apply, mask_apply, maximumf_apply, subf_apply, subf_apply,
    Cert.RowReduce.broadcastTo_a1_ab_apply, broadcastTo_1b_ab_apply, h0, h1, h2, h3]
  unfold term hinge Scalar.select
  have hc : (Ideal.cmp .olt (t (col b l)) (t (row a r)) = 1) ↔ t (col b l) < t (row a r) := cmp_olt_eq_one _ _
  by_cases hlt : t (col b l) < t (row a r)
  · rw [if_pos (hc.mpr hlt), if_pos hlt]
    show max (Ideal.ofBits .f32 0x00000000#32) _ = _
    rw [Ideal.ofBits_zero_f32]; rfl
  · rw [if_neg (fun h => hlt (hc.mp h)), if_neg hlt]
    exact Ideal.ofBits_zero_f32

/-- The running count after the tile: what it was plus the tile's share. -/
theorem count_add_apply (c : Vec Ideal S512x1 .f32) (s : FVec Ideal S512x1 .f32) (j : S512x1.Idx) :
    k0_pay1 (F := Ideal) c s j = c j + s j := by
  unfold k0_pay1
  simp only [shapeCast_self]
  rfl

/-- Before the first tile both running values are zero. -/
theorem zero_total_apply (j : S512x1.Idx) : k0_pay3 (F := Ideal) j = 0 := by
  unfold k0_pay3
  simp only [shapeCast_self]
  exact Ideal.ofBits_zero_f32
theorem zero_count_apply (j : S512x1.Idx) : k0_pay4 (F := Ideal) j = 0 := by
  unfold k0_pay4
  simp only [shapeCast_self]
  exact Ideal.ofBits_zero_f32

/-- After the last tile: the row's worth from its count and its total. -/
theorem worth_apply (cnt tot : Vec Ideal S512x1 .f32) (j : S512x1.Idx) :
    k0_pay2 (F := Ideal) cnt tot j = worth (cnt j) (tot j) := by
  unfold k0_pay2
  rw [select_apply, cmpf_apply, divf_apply, maximumf_apply]
  unfold worth Scalar.select
  show (if Ideal.cmp .ogt (cnt j) (Ideal.ofBits .f32 0x00000000#32) = 1 then
      Ideal.div (tot j) (max (cnt j) (Ideal.ofBits .f32 0x3F800000#32)) else Ideal.ofBits .f32 0x00000000#32) = _
  rw [Ideal.ofBits_zero_f32, ofBits_one_f32]
  have hc : (Ideal.cmp .ogt (cnt j) 0 = 1) ↔ 0 < cnt j := cmp_ogt_eq_one _ _
  by_cases h : 0 < cnt j
  · rw [if_pos (hc.mpr h), if_pos h]
  · rw [if_neg (fun h' => h (hc.mp h')), if_neg h]

end Cert.KernelIdeal.Pay

end
-- ==== Proof.Blocks.lean ====
/-
  The blocks a grid point sees, as entries of the two input vectors.

  The 256 grid points run over 32 blocks of 512 rows (the point's number divided by 8) and, inside each, over 8 tiles of
  2048 columns (its remainder modulo 8).  The four inputs of the region are the two vectors laid out as a column
  [16384, 1] and as a row [1, 16384]; a column window's block at point `t` holds rows `(t / 8) * 512 + r`, a row
  window's block holds columns `(t % 8) * 2048 + l`.
-/
import proofs.«166535_j34256659153340_1_alg».proof.Proof.Gen.KernelIdeal.Frame
import proofs.«166535_j34256659153340_1_alg».proof.Proof.Spec
import Idealize.ShloMosaic.Lib.ValueLayout
import Idealize.ShloMosaic.Lib.Pipeline.Value
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen Cert.PairRank

variable {F : FTy → Type} [FloatOps F]
variable (m : (ℓ : Loc nD τ sig) → Buf (Elt F) ℓ)

/-- Which block each window is on at a point: decided once over the grid. -/
theorem idx_facts : ∀ t : Fin cfg0.N,
    win0_0.index t (0 : Fin 2) = t.val / 8 ∧ win0_0.index t (1 : Fin 2) = 0 ∧
    win0_1.index t (0 : Fin 2) = 0 ∧ win0_1.index t (1 : Fin 2) = t.val % 8 ∧
    win0_2.index t (0 : Fin 2) = t.val / 8 ∧ win0_2.index t (1 : Fin 2) = 0 ∧
    win0_3.index t (0 : Fin 2) = 0 ∧ win0_3.index t (1 : Fin 2) = t.val % 8 ∧
    win0_4.index t (0 : Fin 2) = t.val / 8 ∧ win0_4.index t (1 : Fin 2) = 0 :=
  (by decide +kernel : ∀ t : Fin grid0.N, _)

/-- The four arrays the region finds: the two vectors, each as a column and as a row. -/
theorem V_v0 (c : Dev nD) : (V m c main_v0 : (⟨S16384x1, .f32⟩ : BufTy).Contents (Elt F))
    = shapeCast S16384x1 (m ((c : Thread nD τ).loc main_arg0)) shapeCasts_S16384_S16384x1 := by
  show StableHlo.after hostOps0 (fun b => m (c, b)) (Proc.devRef .tc main_v0) = _
  after_results; rfl
theorem V_v1 (c : Dev nD) : (V m c main_v1 : (⟨S1x16384, .f32⟩ : BufTy).Contents (Elt F))
    = shapeCast S1x16384 (m ((c : Thread nD τ).loc main_arg0)) shapeCasts_S16384_S1x16384 := by
  show StableHlo.after hostOps0 (fun b => m (c, b)) (Proc.devRef .tc main_v1) = _
  after_results; rfl
theorem V_v2 (c : Dev nD) : (V m c main_v2 : (⟨S16384x1, .f32⟩ : BufTy).Contents (Elt F))
    = shapeCast S16384x1 (m ((c : Thread nD τ).loc main_arg1)) shapeCasts_S16384_S16384x1 := by
  show StableHlo.after hostOps0 (fun b => m (c, b)) (Proc.devRef .tc main_v2) = _
  after_results; rfl
theorem V_v3 (c : Dev nD) : (V m c main_v3 : (⟨S1x16384, .f32⟩ : BufTy).Contents (Elt F))
    = shapeCast S1x16384 (m ((c : Thread nD τ).loc main_arg1)) shapeCasts_S16384_S1x16384 := by
  show StableHlo.after hostOps0 (fun b => m (c, b)) (Proc.devRef .tc main_v3) = _
  after_results; rfl

/-- Row `r` of the point's block of the first vector's column. -/
theorem col0_apply (c : Dev nD) (t : Fin cfg0.N) (r : Fin 512) :
    (iblk m c 0 t : Vec F S512x1 .f32) (ix2 r (0 : Fin 1)) = m ((c : Thread nD τ).loc main_arg0) (ix1 (row (t.val / 8) r)) := by
  obtain ⟨h0, h1, -⟩ := idx_facts t
  have hN : t.val < 256 := lt_of_lt_of_eq t.isLt (show cfg0.N = 256 from N_0)
  unfold iblk
  rw [View.read_apply]
  show V m c main_v0 (((cfg0.win 0).blk t).view.emb (ix2 r (0 : Fin 1))) = _
  refine (congrFun (V_v0 m c) _).trans ?_
  refine shapeCast_apply _ _ _ (ix1 (row (t.val / 8) r)) ?_
  rw [Shape.rowMajor_val_one, Shape.rowMajor_val_two]
  show (row (t.val / 8) r).val = (win0_0.index t (0 : Fin 2) * 512 + 1 * r.val) * 1 + (win0_0.index t (1 : Fin 2) * 1 + 1 * 0)
  rw [h0, h1, row_val _ (by omega)]; omega

/-- Column `l` of the point's tile of the first vector's row. -/
theorem row1_apply (c : Dev nD) (t : Fin cfg0.N) (l : Fin 2048) :
    (iblk m c 1 t : Vec F S1x2048 .f32) (ix2 (0 : Fin 1) l) = m ((c : Thread nD τ).loc main_arg0) (ix1 (col (t.val % 8) l)) := by
  obtain ⟨-, -, h0, h1, -⟩ := idx_facts t
  unfold iblk
  rw [View.read_apply]
  show V m c main_v1 (((cfg0.win 1).blk t).view.emb (ix2 (0 : Fin 1) l)) = _
  refine (congrFun (V_v1 m c) _).trans ?_
  refine shapeCast_apply _ _ _ (ix1 (col (t.val % 8) l)) ?_
  rw [Shape.rowMajor_val_one, Shape.rowMajor_val_two]
  show (col (t.val % 8) l).val = (win0_1.index t (0 : Fin 2) * 1 + 1 * 0) * 16384 + (win0_1.index t (1 : Fin 2) * 2048 + 1 * l.val)
  rw [h0, h1, col_val _ (Nat.mod_lt _ (by decide))]; omega

/-- Row `r` of the point's block of the second vector's column. -/
theorem col2_apply (c : Dev nD) (t : Fin cfg0.N) (r : Fin 512) :
    (iblk m c 2 t : Vec F S512x1 .f32) (ix2 r (0 : Fin 1)) = m ((c : Thread nD τ).loc main_arg1) (ix1 (row (t.val / 8) r)) := by
  obtain ⟨-, -, -, -, h0, h1, -⟩ := idx_facts t
  have hN : t.val < 256 := lt_of_lt_of_eq t.isLt (show cfg0.N = 256 from N_0)
  unfold iblk
  rw [View.read_apply]
  show V m c main_v2 (((cfg0.win 2).blk t).view.emb (ix2 r (0 : Fin 1))) = _
  refine (congrFun (V_v2 m c) _).trans ?_
  refine shapeCast_apply _ _ _ (ix1 (row (t.val / 8) r)) ?_
  rw [Shape.rowMajor_val_one, Shape.rowMajor_val_two]
  show (row (t.val / 8) r).val = (win0_2.index t (0 : Fin 2) * 512 + 1 * r.val) * 1 + (win0_2.index t (1 : Fin 2) * 1 + 1 * 0)
  rw [h0, h1, row_val _ (by omega)]; omega

/-- Column `l` of the point's tile of the second vector's row. -/
theorem row3_apply (c : Dev nD) (t : Fin cfg0.N) (l : Fin 2048) :
    (iblk m c 3 t : Vec F S1x2048 .f32) (ix2 (0 : Fin 1) l) = m ((c : Thread nD τ).loc main_arg1) (ix1 (col (t.val % 8) l)) := by
  obtain ⟨-, -, -, -, -, -, h0, h1, -⟩ := idx_facts t
  unfold iblk
  rw [View.read_apply]
  show V m c main_v3 (((cfg0.win 3).blk t).view.emb (ix2 (0 : Fin 1) l)) = _
  refine (congrFun (V_v3 m c) _).trans ?_
  refine shapeCast_apply _ _ _ (ix1 (col (t.val % 8) l)) ?_
  rw [Shape.rowMajor_val_one, Shape.rowMajor_val_two]
  show (col (t.val % 8) l).val = (win0_3.index t (0 : Fin 2) * 1 + 1 * 0) * 16384 + (win0_3.index t (1 : Fin 2) * 2048 + 1 * l.val)
  rw [h0, h1, col_val _ (Nat.mod_lt _ (by decide))]; omega

end Cert.KernelIdeal.Blocks

end
-- ==== Proof.Invariant.lean ====
/-
  What the two accumulators hold after each grid point, and what the output block holds after a block's last tile.

  Point `n` works on block `n / 8` of the rows and tile `n % 8` of the columns.  After it, row `r` of the running
  total is the sum of the row's contributions over the tiles `0 … n % 8`, and the running count is the number of the
  row's counting columns in those tiles: at a first tile both start from the stored zeros, at a later tile they grow by
  the tile's share from what the point before left (induction on the point).  After tile 7 the total is the row's whole
  sum and the count its whole count, and the output block holds the row's worth.
-/
import proofs.«166535_j34256659153340_1_alg».proof.Proof.Found
import proofs.«166535_j34256659153340_1_alg».proof.Proof.Payload
import proofs.«166535_j34256659153340_1_alg».proof.Proof.Blocks

noncomputable section

namespace Cert.KernelIdeal.Inv

open Idealize.ShloMosaic Idealize.ShloMosaic.TcCoe Idealize.SL.Sem Idealize.ShloMosaic.ValueIdx
open Cert.KernelIdeal Cert.KernelIdeal.Gen Cert.PairRank

variable (m : (ℓ : Loc nD τ sig) → Buf (Elt Ideal) ℓ)

/-- The two input vectors on a device, as functions of the position. -/
abbrev P (c : Dev nD) : Fin 16384 → EReal := vec (m ((c : Thread nD τ).loc main_arg0))
abbrev T (c : Dev nD) : Fin 16384 → EReal := vec (m ((c : Thread nD τ).loc main_arg1))

/-- After a block's first tile: the tile's shares, added to the stored zeros. -/
theorem first_tile (c : Dev nD) (t : Fin cfg0.N) (h0 : t.val % 8 = 0) (h1 : ¬t.val % 8 = 7) (r : Fin 512) :
    (outsAt0 m c t.val t.isLt).2.1 (ix2 r (0 : Fin 1)) = 0 + ∑ l : Fin 2048, term (P m c) (T m c) (row (t.val / 8) r) (col (t.val % 8) l)
    ∧ (outsAt0 m c t.val t.isLt).2.2 (ix2 r (0 : Fin 1)) = 0 + ∑ l : Fin 2048, ind (T m c) (row (t.val / 8) r) (col (t.val % 8) l) := by
  have e := outsAt0_A m c t h0 h1
  constructor
  · refine (congrArg (fun z : Vec Ideal S512x1 .f32 × Vec Ideal S512x1 .f32 × Vec Ideal S512x1 .f32 => z.2.1 (ix2 r (0 : Fin 1))) e).trans ?_
    dsimp only
    refine (congrFun (Found.total_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 r (0 : Fin 1))).trans ?_
    refine (Pay.total_apply (iblk m c 0 t) (iblk m c 1 t) (iblk m c 2 t) (iblk m c 3 t) (k0_pay3 (F := Ideal)) (P m c) (T m c) (t.val / 8) (t.val % 8) (Blocks.col0_apply m c t) (Blocks.row1_apply m c t) (Blocks.col2_apply m c t) (Blocks.row3_apply m c t) r).trans ?_
    rw [Pay.zero_total_apply]
  · refine (congrArg (fun z : Vec Ideal S512x1 .f32 × Vec Ideal S512x1 .f32 × Vec Ideal S512x1 .f32 => z.2.2 (ix2 r (0 : Fin 1))) e).trans ?_
    dsimp only
    refine (congrFun (Found.count_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 r (0 : Fin 1))).trans ?_
    refine (Pay.count_add_apply (k0_pay4 (F := Ideal)) (k0_pay7 (F := Ideal) (iblk m c 2 t) (iblk m c 3 t)) (ix2 r (0 : Fin 1))).trans ?_
    rw [Pay.zero_count_apply]
    exact congrArg ((0 : EReal) + ·) (Pay.count_apply (iblk m c 2 t) (iblk m c 3 t) (T m c) (t.val / 8) (t.val % 8) (Blocks.col2_apply m c t) (Blocks.row3_apply m c t) r)

/-- After a later tile: the tile's shares, added to what the point before left. -/
theorem later_tile_B (c : Dev nD) (t : Fin cfg0.N) (h0 : ¬t.val % 8 = 0) (h1 : ¬t.val % 8 = 7) (r : Fin 512) :
    (outsAt0 m c t.val t.isLt).2.1 (ix2 r (0 : Fin 1)) = (outsAt0 m c (t.val - 1) (Nat.lt_of_le_of_lt (Nat.sub_le _ _) t.isLt)).2.1 (ix2 r (0 : Fin 1)) + ∑ l : Fin 2048, term (P m c) (T m c) (row (t.val / 8) r) (col (t.val % 8) l)
    ∧ (outsAt0 m c t.val t.isLt).2.2 (ix2 r (0 : Fin 1)) = (outsAt0 m c (t.val - 1) (Nat.lt_of_le_of_lt (Nat.sub_le _ _) t.isLt)).2.2 (ix2 r (0 : Fin 1)) + ∑ l : Fin 2048, ind (T m c) (row (t.val / 8) r) (col (t.val % 8) l) := by
  have e := outsAt0_B m c t h0 h1
  constructor
  · refine (congrArg (fun z : Vec Ideal S512x1 .f32 × Vec Ideal S512x1 .f32 × Vec Ideal S512x1 .f32 => z.2.1 (ix2 r (0 : Fin 1))) e).trans ?_
    dsimp only
    refine (congrFun (Found.total_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 r (0 : Fin 1))).trans ?_
    exact Pay.total_apply (iblk m c 0 t) (iblk m c 1 t) (iblk m c 2 t) (iblk m c 3 t) (outsAt0 m c (t.val - 1) (Nat.lt_of_le_of_lt (Nat.sub_le _ _) t.isLt)).2.1 (P m c) (T m c) (t.val / 8) (t.val % 8) (Blocks.col0_apply m c t) (Blocks.row1_apply m c t) (Blocks.col2_apply m c t) (Blocks.row3_apply m c t) r
  · refine (congrArg (fun z : Vec Ideal S512x1 .f32 × Vec Ideal S512x1 .f32 × Vec Ideal S512x1 .f32 => z.2.2 (ix2 r (0 : Fin 1))) e).trans ?_
    dsimp only
    refine (congrFun (Found.count_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 r (0 : Fin 1))).trans ?_
    refine (Pay.count_add_apply (outsAt0 m c (t.val - 1) (Nat.lt_of_le_of_lt (Nat.sub_le _ _) t.isLt)).2.2 (k0_pay7 (F := Ideal) (iblk m c 2 t) (iblk m c 3 t)) (ix2 r (0 : Fin 1))).trans ?_
    exact congrArg ((outsAt0 m c (t.val - 1) (Nat.lt_of_le_of_lt (Nat.sub_le _ _) t.isLt)).2.2 (ix2 r (0 : Fin 1)) + ·) (Pay.count_apply (iblk m c 2 t) (iblk m c 3 t) (T m c) (t.val / 8) (t.val % 8) (Blocks.col2_apply m c t) (Blocks.row3_apply m c t) r)

theorem later_tile_C (c : Dev nD) (t : Fin cfg0.N) (h0 : ¬t.val % 8 = 0) (h1 : t.val % 8 = 7) (r : Fin 512) :
    (outsAt0 m c t.val t.isLt).2.1 (ix2 r (0 : Fin 1)) = (outsAt0 m c (t.val - 1) (Nat.lt_of_le_of_lt (Nat.sub_le _ _) t.isLt)).2.1 (ix2 r (0 : Fin 1)) + ∑ l : Fin 2048, term (P m c) (T m c) (row (t.val / 8) r) (col (t.val % 8) l)
    ∧ (outsAt0 m c t.val t.isLt).2.2 (ix2 r (0 : Fin 1)) = (outsAt0 m c (t.val - 1) (Nat.lt_of_le_of_lt (Nat.sub_le _ _) t.isLt)).2.2 (ix2 r (0 : Fin 1)) + ∑ l : Fin 2048, ind (T m c) (row (t.val / 8) r) (col (t.val % 8) l) := by
  have e := outsAt0_C m c t h0 h1
  constructor
  · refine (congrArg (fun z : Vec Ideal S512x1 .f32 × Vec Ideal S512x1 .f32 × Vec Ideal S512x1 .f32 => z.2.1 (ix2 r (0 : Fin 1))) e).trans ?_
    dsimp only
    refine (congrFun (Found.total_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 r (0 : Fin 1))).trans ?_
    exact Pay.total_apply (iblk m c 0 t) (iblk m c 1 t) (iblk m c 2 t) (iblk m c 3 t) (outsAt0 m c (t.val - 1) (Nat.lt_of_le_of_lt (Nat.sub_le _ _) t.isLt)).2.1 (P m c) (T m c) (t.val / 8) (t.val % 8) (Blocks.col0_apply m c t) (Blocks.row1_apply m c t) (Blocks.col2_apply m c t) (Blocks.row3_apply m c t) r
  · refine (congrArg (fun z : Vec Ideal S512x1 .f32 × Vec Ideal S512x1 .f32 × Vec Ideal S512x1 .f32 => z.2.2 (ix2 r (0 : Fin 1))) e).trans ?_
    dsimp only
    refine (congrFun (Found.count_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 r (0 : Fin 1))).trans ?_
    refine (Pay.count_add_apply (outsAt0 m c (t.val - 1) (Nat.lt_of_le_of_lt (Nat.sub_le _ _) t.isLt)).2.2 (k0_pay7 (F := Ideal) (iblk m c 2 t) (iblk m c 3 t)) (ix2 r (0 : Fin 1))).trans ?_
    exact congrArg ((outsAt0 m c (t.val - 1) (Nat.lt_of_le_of_lt (Nat.sub_le _ _) t.isLt)).2.2 (ix2 r (0 : Fin 1)) + ·) (Pay.count_apply (iblk m c 2 t) (iblk m c 3 t) (T m c) (t.val / 8) (t.val % 8) (Blocks.col2_apply m c t) (Blocks.row3_apply m c t) r)

/-- After a block's last tile the output block holds, at row `r`, the worth of the new count and the new total. -/
theorem last_tile_out (c : Dev nD) (t : Fin cfg0.N) (h0 : ¬t.val % 8 = 0) (h1 : t.val % 8 = 7) (r : Fin 512) :
    (outsAt0 m c t.val t.isLt).1 (ix2 r (0 : Fin 1))
      = worth ((outsAt0 m c (t.val - 1) (Nat.lt_of_le_of_lt (Nat.sub_le _ _) t.isLt)).2.2 (ix2 r (0 : Fin 1)) + ∑ l : Fin 2048, ind (T m c) (row (t.val / 8) r) (col (t.val % 8) l)) ((outsAt0 m c (t.val - 1) (Nat.lt_of_le_of_lt (Nat.sub_le _ _) t.isLt)).2.1 (ix2 r (0 : Fin 1)) + ∑ l : Fin 2048, term (P m c) (T m c) (row (t.val / 8) r) (col (t.val % 8) l)) := by
  have e := outsAt0_C m c t h0 h1
  refine (congrArg (fun z : Vec Ideal S512x1 .f32 × Vec Ideal S512x1 .f32 × Vec Ideal S512x1 .f32 => z.1 (ix2 r (0 : Fin 1))) e).trans ?_
  dsimp only
  refine (congrFun (Found.worth_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 r (0 : Fin 1))).trans ?_
  refine (Pay.worth_apply _ _ (ix2 r (0 : Fin 1))).trans ?_
  have ec := (Pay.count_add_apply (outsAt0 m c (t.val - 1) (Nat.lt_of_le_of_lt (Nat.sub_le _ _) t.isLt)).2.2 (k0_pay7 (F := Ideal) (iblk m c 2 t) (iblk m c 3 t)) (ix2 r (0 : Fin 1))).trans
    (congrArg ((outsAt0 m c (t.val - 1) (Nat.lt_of_le_of_lt (Nat.sub_le _ _) t.isLt)).2.2 (ix2 r (0 : Fin 1)) + ·) (Pay.count_apply (iblk m c 2 t) (iblk m c 3 t) (T m c) (t.val / 8) (t.val % 8) (Blocks.col2_apply m c t) (Blocks.row3_apply m c t) r))
  have et := Pay.total_apply (iblk m c 0 t) (iblk m c 1 t) (iblk m c 2 t) (iblk m c 3 t) (outsAt0 m c (t.val - 1) (Nat.lt_of_le_of_lt (Nat.sub_le _ _) t.isLt)).2.1 (P m c) (T m c) (t.val / 8) (t.val % 8) (Blocks.col0_apply m c t) (Blocks.row1_apply m c t) (Blocks.col2_apply m c t) (Blocks.row3_apply m c t) r
  rw [ec, et]

/-- THE RUNNING VALUES: after point `n`, the total and the count over the tiles `0 … n % 8` of block `n / 8`. -/
theorem running (c : Dev nD) : ∀ (n : ℕ) (h : n < cfg0.N) (r : Fin 512),
    (outsAt0 m c n h).2.1 (ix2 r (0 : Fin 1)) = accSum (P m c) (T m c) (n / 8) (n % 8) r
    ∧ (outsAt0 m c n h).2.2 (ix2 r (0 : Fin 1)) = accCnt (T m c) (n / 8) (n % 8) r := by
  intro n
  induction n with
  | zero =>
    intro h r
    have h7 : ¬(0 : ℕ) % 8 = 7 := by decide
    obtain ⟨e1, e2⟩ := first_tile m c ⟨0, h⟩ rfl h7 r
    refine ⟨e1.trans ?_, e2.trans ?_⟩
    · rw [zero_add]; exact (tiles_zero _).symm
    · rw [zero_add]; exact (tiles_zero _).symm
  | succ n ih =>
    intro h r
    have hN : n + 1 < 256 := lt_of_lt_of_eq h (show cfg0.N = 256 from N_0)
    by_cases h0 : (n + 1) % 8 = 0
    · have h1 : ¬(n + 1) % 8 = 7 := by omega
      obtain ⟨e1, e2⟩ := first_tile m c ⟨n + 1, h⟩ h0 h1 r
      have e1' : (outsAt0 m c (n + 1) h).2.1 (ix2 r (0 : Fin 1)) = 0 + ∑ l : Fin 2048, term (P m c) (T m c) (row ((n + 1) / 8) r) (col ((n + 1) % 8) l) := e1
      have e2' : (outsAt0 m c (n + 1) h).2.2 (ix2 r (0 : Fin 1)) = 0 + ∑ l : Fin 2048, ind (T m c) (row ((n + 1) / 8) r) (col ((n + 1) % 8) l) := e2
      refine ⟨e1'.trans ?_, e2'.trans ?_⟩
      · rw [zero_add, h0]; exact (tiles_zero _).symm
      · rw [zero_add, h0]; exact (tiles_zero _).symm
    · have hd : (n + 1) / 8 = n / 8 := by omega
      have hm : (n + 1) % 8 = n % 8 + 1 := by omega
      obtain ⟨i1, i2⟩ := ih (Nat.lt_of_succ_lt h) r
      have key : (outsAt0 m c (n + 1) h).2.1 (ix2 r (0 : Fin 1)) = (outsAt0 m c n (Nat.lt_of_succ_lt h)).2.1 (ix2 r (0 : Fin 1)) + ∑ l : Fin 2048, term (P m c) (T m c) (row ((n + 1) / 8) r) (col ((n + 1) % 8) l)
          ∧ (outsAt0 m c (n + 1) h).2.2 (ix2 r (0 : Fin 1)) = (outsAt0 m c n (Nat.lt_of_succ_lt h)).2.2 (ix2 r (0 : Fin 1)) + ∑ l : Fin 2048, ind (T m c) (row ((n + 1) / 8) r) (col ((n + 1) % 8) l) := by
        by_cases h1 : (n + 1) % 8 = 7
        · exact later_tile_C m c ⟨n + 1, h⟩ h0 h1 r
        · exact later_tile_B m c ⟨n + 1, h⟩ h0 h1 r
      obtain ⟨k1, k2⟩ := key
      refine ⟨k1.trans ?_, k2.trans ?_⟩
      · rw [i1, hd, hm]; exact (tiles_succ _ _).symm
      · rw [i2, hd, hm]; exact (tiles_succ _ _).symm

/-- After a block's last tile the output block holds the rows' worths. -/
theorem last_tile_worth (c : Dev nD) (t : Fin cfg0.N) (h1 : t.val % 8 = 7) (r : Fin 512) :
    (outsAt0 m c t.val t.isLt).1 (ix2 r (0 : Fin 1)) = perRow (P m c) (T m c) (row (t.val / 8) r) := by
  have hN : t.val < 256 := lt_of_lt_of_eq t.isLt (show cfg0.N = 256 from N_0)
  have h0 : ¬t.val % 8 = 0 := by omega
  obtain ⟨i1, i2⟩ := running m c (t.val - 1) (Nat.lt_of_le_of_lt (Nat.sub_le _ _) t.isLt) r
  have hd : (t.val - 1) / 8 = t.val / 8 := by omega
  have hm : (t.val - 1) % 8 = 6 := by omega
  rw [last_tile_out m c t h0 h1 r, i1, i2, hd, hm, h1]
  unfold perRow
  rw [← accSum_last, ← accCnt_last]
  exact congrArg₂ worth (tiles_succ _ 6).symm (tiles_succ _ 6).symm

end Cert.KernelIdeal.Inv

end
-- ==== Proof.KernelValue.lean ====
/-
  The kernel's result.

  The output column [16384, 1] is written back one block of 512 rows at a time, after each block's last tile, and every
  row lies in exactly one such block; so after the run it holds, at row `i`, the row's worth.  The host operations after
  the region view the column as a vector, sum it from zero and divide by 16384: the loss.
-/
import proofs.«166535_j34256659153340_1_alg».proof.Proof.Invariant
import Idealize.ShloMosaic.Lib.Pipeline.Value
import Idealize.ShloMosaic.Lib.StableHlo.Run
import Idealize.ShloMosaic.PureOps.Ideal.Laws

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Inv Cert.PairRank

variable (m : (ℓ : Loc nD τ sig) → Buf (Elt Ideal) ℓ) (ρ : Dev nD → PrngReg)

/-- The rows' worths as a column: what the region's output array ends holding. -/
def worthCol (c : Dev nD) : S16384x1.Idx → EReal := fun y => perRow (P m c) (T m c) (y 0)

theorem worthCol_at (c : Dev nD) (i : Fin 16384) : worthCol m c (ix2 i (0 : Fin 1)) = perRow (P m c) (T m c) i := rfl

/-- Row `r` of the output window's block at point `t` is row `(t / 8) * 512 + r` of the array, whatever the array holds. -/
theorem read_blk (G : (⟨S16384x1, .f32⟩ : BufTy).Contents (Elt Ideal)) (t : Fin cfg0.N) (r : Fin 512) :
    ((cfg0.win 4).blk t).view.read (Elt Ideal) G (ix2 r (0 : Fin 1)) = G (ix2 (row (t.val / 8) r) (0 : Fin 1)) := by
  have hN : t.val < 256 := lt_of_lt_of_eq t.isLt (show cfg0.N = 256 from N_0)
  obtain ⟨-, -, -, -, -, -, -, -, h0, h1⟩ := Blocks.idx_facts t
  have e : ((cfg0.win 4).blk t).view.emb (ix2 r (0 : Fin 1)) = (ix2 (row (t.val / 8) r) (0 : Fin 1) : S16384x1.Idx) := by
    funext a; apply Fin.ext
    match a with
    | ⟨0, _⟩ => show win0_4.index t (0 : Fin 2) * 512 + 1 * r.val = (row (t.val / 8) r).val; rw [h0, row_val _ (by omega)]; omega
    | ⟨1, _⟩ => show win0_4.index t (1 : Fin 2) * 1 + 1 * 0 = 0; rw [h1]
  rw [View.read_apply]
  show G (((cfg0.win 4).blk t).view.emb (ix2 r (0 : Fin 1))) = _
  rw [e]

/-- WHAT A FLUSHING POINT WRITES BACK is its block of the column of worths. -/
theorem flushed_eq (c : Dev nD) (t : Fin cfg0.N) (hf : (cfg0.win 4).flush t = true) :
    (dats m 0 c).flushed 4 t = ((cfg0.win 4).blk t).view.read (Elt Ideal) (worthCol m c) := by
  have h7 : t.val % 8 = 7 := (flush0_4 t).mp hf
  show (cfg0.win 4).cut (grid0.coords t) ((dats m 0 c).after 4 t) = _
  rw [after0_4]
  funext j
  obtain ⟨r, u, rfl⟩ : ∃ (r : Fin 512) (u : Fin 1), j = ix2 r u := ⟨j 0, j 1, eq_ix2 j⟩
  obtain rfl : u = 0 := Subsingleton.elim _ _
  refine Eq.trans ?_ (read_blk (worthCol m c) t r).symm
  show (outsAt0 m c t.val t.isLt).1 (ix2 r (0 : Fin 1)) = _
  rw [last_tile_worth m c t h7 r]
  exact (worthCol_at m c _).symm

/-- A row is in point `t`'s block when each coordinate is in the block's range on its axis. -/
theorem mem_blk (t : Fin cfg0.N) (i : S16384x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v4).slice (win0_4.rect t)).set ↔ _
  rw [View.set_slice_whole, Rect.mem_set_unit]
  exact Iff.rfl

/-- Every row is in the block written back after the last tile of its block of rows. -/
theorem cover (i : S16384x1.Idx) : ∃ t : Fin cfg0.N, (cfg0.win 4).flush t = true ∧ i ∈ ((cfg0.win 4).blk t).view.set := by
  have hi0 : (i 0).val < 16384 := (i 0).isLt
  have hi1 : (i 1).val < 1 := (i 1).isLt
  have hN : cfg0.N = 256 := N_0
  have hlt : (i 0).val / 512 * 8 + 7 < cfg0.N := by rw [hN]; omega
  obtain ⟨-, -, -, -, -, -, -, -, h0, h1⟩ := Blocks.idx_facts ⟨(i 0).val / 512 * 8 + 7, hlt⟩
  refine ⟨⟨(i 0).val / 512 * 8 + 7, hlt⟩, (flush0_4 _).mpr (by show ((i 0).val / 512 * 8 + 7) % 8 = 7; omega), ?_⟩
  rw [mem_blk]
  intro a
  match a with
  | ⟨0, _⟩ =>
    show win0_4.index ⟨(i 0).val / 512 * 8 + 7, hlt⟩ (0 : Fin 2) * 512 ≤ (i 0).val ∧ (i 0).val < win0_4.index ⟨(i 0).val / 512 * 8 + 7, hlt⟩ (0 : Fin 2) * 512 + 512
    rw [h0]; show ((i 0).val / 512 * 8 + 7) / 8 * 512 ≤ (i 0).val ∧ (i 0).val < ((i 0).val / 512 * 8 + 7) / 8 * 512 + 512; omega
  | ⟨1, _⟩ =>
    show win0_4.index ⟨(i 0).val / 512 * 8 + 7, hlt⟩ (1 : Fin 2) * 1 ≤ (i 1).val ∧ (i 1).val < win0_4.index ⟨(i 0).val / 512 * 8 + 7, hlt⟩ (1 : Fin 2) * 1 + 1
    rw [h1]; omega

/-- THE OUTPUT ARRAY after the run: the column of worths. -/
theorem final (c : Dev nD) : (dats m 0 c).arrAt 4 cfg0.N = worthCol m c :=
  (dats m 0 c).arrAt_eq_of_cover 4 (worthCol m c) (fun t hf => flushed_eq m c t hf) (fun i => cover i)

/-- The host operations after the region, as one function of the region's output column: the column viewed as a
    vector, summed from zero, divided by 16384. -/
def tailFn (X : (⟨S16384x1, .f32⟩ : BufTy).Contents (Elt Ideal)) : (⟨S_, .f32⟩ : BufTy).Contents (Elt Ideal) :=
  Host.divf (F := Ideal)
    (Host.reduceAdd (F := Ideal) (shapeCast S16384 X shapeCasts_S16384x1_S16384) (constant (F := Ideal) S_ .f32 0x00000000#32)
      reducesTo_S16384_S_d0 h_S_)
    (constant (F := Ideal) S_ .f32 0x46800000#32)

/-- The operations after the region leave the result at that function of the output column, whatever the other buffers
    hold. -/
theorem tail_of (W : Valuation τ sig (Elt Ideal)) :
    StableHlo.after hostOps1 W (Proc.devRef .tc main_v7) = tailFn (W (Proc.devRef .tc main_v4)) := by
  after_results
  rfl

/-- Of a column that holds the rows' worths, that function is the loss. -/
theorem tail_loss (X : (⟨S16384x1, .f32⟩ : BufTy).Contents (Elt Ideal)) (x0 x1 : (⟨1, ![16384]⟩ : Shape).Idx → EReal)
    (hX : ∀ i : Fin 16384, X (ix2 i (0 : Fin 1)) = perRow (vec x0) (vec x1) i) : tailFn X = loss x0 x1 := by
  funext u
  have hs : ∀ j : S16384.Idx, shapeCast S16384 X shapeCasts_S16384x1_S16384 j = perRowVec x0 x1 j := fun j => by
    obtain ⟨i, rfl⟩ : ∃ i : Fin 16384, j = ix1 i := ⟨j 0, eq_ix1 j⟩
    refine (shapeCast_apply X shapeCasts_S16384x1_S16384 (ix1 i) (ix2 i (0 : Fin 1)) ?_).trans ((hX i).trans rfl)
    rw [Shape.rowMajor_val_two, Shape.rowMajor_val_one]
    show i.val * 1 + 0 = i.val
    omega
  unfold tailFn
  generalize shapeCast S16384 X shapeCasts_S16384x1_S16384 = y at hs ⊢
  show Ideal.div (Host.reduceAdd (F := Ideal) y (constant (F := Ideal) S_ .f32 0x00000000#32) reducesTo_S16384_S_d0 h_S_ u)
    (Ideal.ofBits .f32 0x46800000#32) = _
  simp only [Host.reduceAdd, Ideal.hostReduceAdd_def]
  rw [Ideal.hostReduceAdd_total reducesTo_S16384_S_d0 (fun b => b.elim0) y _ u]
  unfold loss
  exact congrArg (fun s => Ideal.div (Ideal.ofBits .f32 0x00000000#32 + s) (Ideal.ofBits .f32 0x46800000#32))
    (Finset.sum_congr rfl fun j _ => hs j)

/-- The host operations after the region turn the column of worths into the loss. -/
theorem tail_eq (c : Dev nD) :
    Pipeline.afterTail₀ cfgs (dats m) 0 (V0 m) [hostOps1] c main_v7
      = loss (m ((c : Thread nD τ).loc main_arg0)) (m ((c : Thread nD τ).loc main_arg1)) := by
  unfold Pipeline.afterTail₀
  show StableHlo.after hostOps1 _ (Proc.devRef .tc main_v7) = _
  refine (tail_of _).trans ?_
  have hw : Pipeline.withArrays spec0 c (V0 m c) (fun w => (dats m 0 c).arrAt w cfg0.N) (Proc.devRef .tc main_v4) = worthCol m c :=
    (Pipeline.withArrays_arr spec0 launch0.win.arr_inj c _ _ 4).trans (final m c)
  refine (congrArg tailFn hw).trans ?_
  exact tail_loss (worthCol m c) _ _ fun i => worthCol_at m c i

/-- THE KERNEL'S RUN, read: the result is the loss of the two arguments, which end unchanged. -/
theorem run : θ_run defs (onTc (τ := τ) (main (F := Ideal))) ⟨m, fun _ => 0, ρ⟩ fun r => ∀ c : Dev nD,
      r.2.mem ((c.tc : Thread nD τ).loc main_v7) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.LibBitCount.lean ====
/-
  Counting the members of a finite set that satisfy a condition, three ways that agree.

  As a sum of extended-real ones (one for a member that satisfies the condition, zero for any other) the count is the
  number of such members as a real.  As a sum of 32-bit words (each the condition's truth bit widened to 32 bits,
  added from the zero word in any order) it is that number as a 32-bit word.  And while the number is at most 16384
  the word reads back signed as the number itself, its signed test against zero says whether the number is positive,
  and its signed maximum with one reads back as the number when the number is positive.
-/
import Idealize.ShloMosaic.PureOps.Ideal.Laws
import Idealize.ShloMosaic.PureOps.Reduce

noncomputable section

namespace Cert.BitCount

open Idealize.ShloMosaic

/-- A sum of ones over the members of a set that satisfy `P` is their number. -/
theorem sum_ind {n : ℕ} (s : Finset (Fin n)) (P : Fin n → Prop) [DecidablePred P] :
    ∑ j ∈ s, (if P j then (1 : EReal) else 0) = (((s.filter P).card : ℝ) : EReal) := by
  induction s using Finset.induction_on with
  | empty => simp
  | insert a s ha ih =>
    rw [Finset.sum_insert ha, ih, Finset.filter_insert]
    by_cases h : P a
    · rw [if_pos h, if_pos h, Finset.card_insert_of_notMem (fun hm => ha (Finset.mem_of_mem_filter _ hm))]
      push_cast
      exact add_comm _ _
    · rw [if_neg h, if_neg h, zero_add]

/-- The same count taken by adding the bits as 32-bit words. -/
theorem fold_count {n : ℕ} (s : Finset (Fin n)) (P : Fin n → Prop) [DecidablePred P] :
    s.fold IntOp.addi 0#32 (fun k => (BitVec.ofBool (decide (P k))).setWidth 32) = BitVec.ofNat 32 (s.filter P).card := by
  induction s using Finset.induction_on with
  | empty => rfl
  | insert a s ha ih =>
    rw [Finset.fold_insert ha, ih, Finset.filter_insert]
    by_cases h : P a
    · rw [if_pos h, Finset.card_insert_of_notMem (fun hm => ha (Finset.mem_of_mem_filter _ hm)), decide_eq_true h]
      unfold IntOp.addi
      rw [show (BitVec.ofBool true).setWidth 32 = BitVec.ofNat 32 1 from by decide, BitVec.ofNat_add_ofNat, Nat.add_comm]
    · rw [if_neg h, decide_eq_false h]
      unfold IntOp.addi
      rw [show (BitVec.ofBool false).setWidth 32 = 0#32 from by decide, BitVec.zero_add]

/-- A count of at most 16384, as a 32-bit word, reads back signed as itself. -/
theorem toInt_small (n : ℕ) (hn : n ≤ 16384) : (BitVec.ofNat 32 n).toInt = (n : ℤ) := by
  have hp : (2 : ℕ) ^ 32 = 4294967296 := by norm_num
  have h1 : (BitVec.ofNat 32 n).toNat = n := by rw [BitVec.toNat_ofNat]; exact Nat.mod_eq_of_lt (by omega)
  rw [BitVec.toInt_eq_toNat_of_lt (by rw [h1]; omega), h1]

theorem sgt_zero (n : ℕ) (hn : n ≤ 16384) : IntOp.cmpi .sgt (BitVec.ofNat 32 n) 0#32 = BitVec.ofBool (decide (0 < n)) := by
  unfold IntOp.cmpi
  show BitVec.ofBool ((0#32).slt (BitVec.ofNat 32 n)) = _
  congr 1
  rw [BitVec.slt_eq_decide, BitVec.toInt_zero, toInt_small n hn]
  simp

theorem maxsi_one (n : ℕ) (hn : n ≤ 16384) (hpos : 0 < n) : (IntOp.maxsi (BitVec.ofNat 32 n) 1#32).toInt = (n : ℤ) := by
  unfold IntOp.maxsi
  by_cases h : 1 < n
  · have hs : (1#32).slt (BitVec.ofNat 32 n) = true := by
      rw [BitVec.slt_eq_decide, toInt_small n hn, BitVec.toInt_one (by decide)]
      exact decide_eq_true (by exact_mod_cast h)
    rw [if_pos hs]
    exact toInt_small n hn
  · have h1 : n = 1 := by omega
    subst h1
    decide

end Cert.BitCount

end
-- ==== Proof.RefValue.lean ====
/-
  The reference computes the loss.

  Read at an index, the reference's stages are: the mask `target j < target i`; the hinge; their select, which is the
  contribution of column `j` to row `i`; the row's total, summed from zero; the row's count, here an INTEGER sum of the
  mask's bits; and the row's worth, taken where the integer count is positive as the total over the count (at least one)
  converted to a number.  The integer count of at most 16384 columns is that number of columns as a 32-bit word, so its
  sign test, its maximum with one and its conversion agree with the count taken as a sum of ones.  The last two stages sum
  the worths from zero and divide by 16384.
-/
import proofs.«166535_j34256659153340_1_alg».proof.Proof.RefRead
import proofs.«166535_j34256659153340_1_alg».proof.Proof.Spec
import proofs.«166535_j34256659153340_1_alg».proof.Proof.LibRowReduce
import proofs.«166535_j34256659153340_1_alg».proof.Proof.LibBitCount

noncomputable section

namespace Cert.ReferenceIdeal.RefValue

open Idealize.ShloMosaic Idealize.ShloMosaic.ValueIdx
open Cert.ReferenceIdeal Cert.ReferenceIdeal.Gen Cert.ReferenceIdeal.Read Cert.PairRank Cert.BitCount

/-! ## Counting with 32-bit words -/

/-- The number of columns that count for row `i`. -/
def cntN (t : Fin 16384 → EReal) (i : Fin 16384) : ℕ := (Finset.univ.filter fun j : Fin 16384 => t j < t i).card

theorem cntN_le (t : Fin 16384 → EReal) (i : Fin 16384) : cntN t i ≤ 16384 :=
  (Finset.card_filter_le _ _).trans (by simp)

theorem rowCnt_eq (t : Fin 16384 → EReal) (i : Fin 16384) : rowCnt t i = ((cntN t i : ℝ) : EReal) :=
  sum_ind Finset.univ _

/-- The row's worth from the integer count: the sign test, the maximum with one and the conversion of the word agree with
    the count as a number. -/
theorem worth_int (n : ℕ) (hn : n ≤ 16384) (s : EReal) :
    Scalar.select (IntOp.cmpi .sgt (BitVec.ofNat 32 n) 0#32)
      (Ideal.div s (((IntOp.maxsi (BitVec.ofNat 32 n) 1#32).toInt : ℝ) : EReal)) (Ideal.ofBits .f32 0x00000000#32)
      = worth ((n : ℝ) : EReal) s := by
  rw [sgt_zero n hn]
  unfold worth Scalar.select
  by_cases hpos : 0 < n
  · have h1 : (BitVec.ofBool (decide (0 < n)) = 1) := by rw [decide_eq_true hpos]; rfl
    have hc : (0 : EReal) < ((n : ℝ) : EReal) := by exact_mod_cast hpos
    have hone : (1 : EReal) ≤ ((n : ℝ) : EReal) := by exact_mod_cast hpos
    rw [if_pos h1, maxsi_one n hn hpos, if_pos hc, max_eq_left hone]
    norm_cast
  · have h0 : n = 0 := by omega
    subst h0
    have h1 : ¬(BitVec.ofBool (decide (0 < 0)) = 1) := by decide
    rw [if_neg h1, if_neg (by simp)]
    exact Ideal.ofBits_zero_f32

/-! ## The reference's stages at an index -/

variable (x0 x1 : (⟨S16384, .f32⟩ : BufTy).Contents (Elt Ideal))

/-- The mask: column `j` counts for row `i`. -/
theorem mask_apply (i j : Fin 16384) :
    val_main_v4 (F := Ideal) x1 (ix2 i j) = Ideal.cmp .olt (x1 (ix1 j)) (x1 (ix1 i)) := by
  rw [val_main_v4_apply, val_main_v2_apply, val_main_v0_apply, val_main_v3_apply, val_main_v1_apply]
  have e1 : idx_main_v0 (idx_main_v2 (ix2 i j)) = ix1 j := funext fun a => Fin.ext (by match a with | ⟨0, _⟩ => rfl)
  have e2 : idx_main_v1 (idx_main_v3 (ix2 i j)) = ix1 i := funext fun a => Fin.ext (by match a with | ⟨0, _⟩ => rfl)
  rw [e1, e2]
  rfl

/-- The hinge of row `i` against column `j`. -/
theorem hinge_apply (i j : Fin 16384) : val_main_v13 (F := Ideal) x0 (ix2 i j) = hinge (vec x0) i j := by
  rw [val_main_v13_apply, val_main_v12_apply, val_main_cst_0_apply, val_main_v11_apply, val_main_v10_apply,
    val_main_cst_apply, val_main_v9_apply, val_main_v7_apply, val_main_v5_apply, val_main_v8_apply, val_main_v6_apply]
  have e1 : idx_main_v5 (idx_main_v7 (ix2 i j)) = ix1 i := funext fun a => Fin.ext (by match a with | ⟨0, _⟩ => rfl)
  have e2 : idx_main_v6 (idx_main_v8 (ix2 i j)) = ix1 j := funext fun a => Fin.ext (by match a with | ⟨0, _⟩ => rfl)
  rw [e1, e2]
  show max (Ideal.ofBits .f32 0x00000000#32) (Ideal.ofBits .f32 0x3DCCCCCD#32 - (x0 (ix1 i) - x0 (ix1 j))) = _
  rw [Ideal.ofBits_zero_f32]
  rfl

/-- What column `j` contributes to row `i`. -/
theorem term_apply (i j : Fin 16384) : val_main_v14 (F := Ideal) x0 x1 (ix2 i j) = term (vec x0) (vec x1) i j := by
  rw [val_main_v14_apply, mask_apply, hinge_apply, val_main_call0_v1_apply, val_main_call0_v0_apply, val_main_cst_1_apply]
  unfold term Scalar.select
  have hc : (Ideal.cmp .olt (x1 (ix1 j)) (x1 (ix1 i)) = 1) ↔ x1 (ix1 j) < x1 (ix1 i) := by
    unfold Ideal.cmp
    by_cases h : x1 (ix1 j) < x1 (ix1 i) <;> simp [h]
  by_cases h : x1 (ix1 j) < x1 (ix1 i)
  · rw [if_pos (hc.mpr h)]; exact (if_pos h).symm
  · rw [if_neg (fun h' => h (hc.mp h'))]; exact (Ideal.ofBits_zero_f32).trans (if_neg h).symm

/-- Row `i`'s total. -/
theorem rowSum_apply (i : Fin 16384) : val_main_v15 (F := Ideal) x0 x1 (ix1 i) = rowSum (vec x0) (vec x1) i := by
  rw [val_main_v15_apply, val_main_cst_2_apply]
  show Ideal.ofBits .f32 0x00000000#32 + _ = _
  rw [Ideal.ofBits_zero_f32, zero_add]
  unfold rowSum
  refine Finset.sum_congr rfl fun k _ => ?_
  have e : idx_main_v15 (ix1 i) k = ix2 i k :=
    funext fun a => Fin.ext (by match a with | ⟨0, _⟩ => rfl | ⟨1, _⟩ => rfl)
  rw [e, term_apply]

/-- Row `i`'s count, as the integer sum leaves it. -/
theorem count_apply (i : Fin 16384) : val_main_v17 (F := Ideal) x1 (ix1 i) = BitVec.ofNat 32 (cntN (vec x1) i) := by
  have h : S16384x16384.Reduces [1] S16384 := by decide
  unfold val_main_v17
  rw [Host.reduce_eq_fold_single IntOp.addi _ _ reducesTo_S16384x16384_S16384_d1 h h_S_ (ix1 i)]
  have e : (val_main_v16 (F := Ideal) x1 ∘ h.lift (ix1 i))
      = fun k : Fin 16384 => (BitVec.ofBool (decide (vec x1 k < vec x1 i))).setWidth 32 := funext fun k => by
    show val_main_v16 (F := Ideal) x1 (h.lift (ix1 i) k) = _
    rw [Cert.RowReduce.lift_row h i k, val_main_v16_apply]
    exact congrArg (BitVec.setWidth 32) (mask_apply x1 i k)
  rw [e]
  exact fold_count Finset.univ fun k : Fin 16384 => vec x1 k < vec x1 i

/-- Row `i`'s worth. -/
theorem perRow_apply (i : Fin 16384) : val_main_v24 (F := Ideal) x0 x1 (ix1 i) = perRow (vec x0) (vec x1) i := by
  rw [val_main_v24_apply, val_main_v19_apply, val_main_v23_apply, val_main_v22_apply, val_main_v21_apply,
    val_main_v18_apply, val_main_c_3_apply, val_main_v20_apply, val_main_c_4_apply, val_main_call1_v1_apply,
    val_main_call1_v0_apply, val_main_cst_5_apply, count_apply, rowSum_apply]
  unfold perRow
  rw [rowCnt_eq]
  exact worth_int _ (cntN_le _ _) _

/-- THE REFERENCE'S RESULT is the loss of its two arguments. -/
theorem result_eq : val_main_v26 (F := Ideal) x0 x1 = loss x0 x1 := by
  funext u
  rw [val_main_v26_apply, val_main_v25_apply, val_main_cst_6_apply, val_main_cst_7_apply]
  unfold loss
  refine congrArg (fun s => Ideal.div (Ideal.ofBits .f32 0x00000000#32 + s) (Ideal.ofBits .f32 0x46800000#32))
    (Finset.sum_congr rfl fun j _ => ?_)
  obtain ⟨i, rfl⟩ : ∃ i : Fin 16384, j = ix1 i := ⟨j 0, eq_ix1 j⟩
  rw [perRow_apply]
  rfl

end Cert.ReferenceIdeal.RefValue

end
-- ==== Proof.lean ====
/-
  A pairwise margin ranking loss over 16384 scores: the tiled kernel against the whole-matrix reference.

  For every row `i`, a column `j` counts when `target j < target i`; a counting column contributes the hinge
  `max 0 (margin - (pred i - pred j))`.  A row with at least one counting column is worth its total contribution divided
  by its count, any other row is worth nothing, and the loss is the sum of the rows' worths divided by 16384.

  The kernel walks a 32 × 8 grid: blocks of 512 rows, and for each block eight tiles of 2048 columns.  It keeps a running
  total and a running count per row, reset at a block's first tile, and after the last tile writes the block's worths.
  Over the extended reals the running values after tile `k` are the sums over the tiles `0 … k`, so after the last tile
  they are the row's whole total and whole count — only commutativity and associativity of the addition are used, which
  hold for infinities too, so no finiteness of the inputs is needed.  The count the kernel takes as a sum of float ones
  and the reference as a 32-bit integer sum converted afterwards agree, the count being at most 16384.  The host
  operations after the region sum the worths and divide, as the reference's last two operations do.

  The three frames are the generated frame runs (the reference's is its run with the result dropped); the idealization
  rewrote nothing; and both idealized programs end at the same function `Cert.PairRank.loss` of arguments that agree.
-/
import proofs.«166535_j34256659153340_1_alg».proof.Defs
import proofs.«166535_j34256659153340_1_alg».proof.Proof.Gen.Kernel
import proofs.«166535_j34256659153340_1_alg».proof.Proof.Gen.Kernel.Skeleton
import proofs.«166535_j34256659153340_1_alg».proof.Proof.Gen.Kernel.Launch
import proofs.«166535_j34256659153340_1_alg».proof.Proof.Gen.Kernel.Points
import proofs.«166535_j34256659153340_1_alg».proof.Proof.Gen.Kernel.Frame
import proofs.«166535_j34256659153340_1_alg».proof.Proof.Gen.KernelIdeal
import proofs.«166535_j34256659153340_1_alg».proof.Proof.Gen.KernelIdeal.Skeleton
import proofs.«166535_j34256659153340_1_alg».proof.Proof.Gen.KernelIdeal.Launch
import proofs.«166535_j34256659153340_1_alg».proof.Proof.Gen.KernelIdeal.Points
import proofs.«166535_j34256659153340_1_alg».proof.Proof.Gen.KernelIdeal.Frame
import proofs.«166535_j34256659153340_1_alg».proof.Proof.Gen.ReferenceIdeal
import proofs.«166535_j34256659153340_1_alg».proof.Proof.Gen.Pre_finite_inputs
import proofs.«166535_j34256659153340_1_alg».proof.Proof.KernelValue
import proofs.«166535_j34256659153340_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the loss of their arguments, and the arguments agree. -/
theorem algebraic : Cert.algebraic_KernelIdeal_ReferenceIdeal := by
  intro m ρ m' ρ' _ hagree
  refine ⟨fun c => Cert.PairRank.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v26_eq _ _).trans
    ((Cert.ReferenceIdeal.RefValue.result_eq _ _).trans ?_))
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
